-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S4x2048x768 .f32) (main_arg1 : FVec F S768 .f32) (main_arg2 : FVec F S3072x768 .f32) (main_arg3 : FVec F S3072 .f32) (main_arg4 : FVec F S768x3072 .f32) (main_arg5 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S3072x768 .f32 := Host.absf main_arg2
  let main_cst_2 : FVec F S_ .f32 := constant S_ .f32 0x7F800000#32
  let main_v10 : FVec F S3072x768 .f32 := broadcastInDim S3072x768 ![] bcast_S_S3072x768 main_cst_2
  let main_v11 : IVec S3072x768 1 := cmpf .olt main_v9 main_v10
  let main_c_3 : IVec S_ 1 := constantI S_ 1 1#1
  let main_v12 : IVec S_ 1 := (fun x v => Host.reduce IntOp.andi x v reducesTo_S3072x768_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S8192x768 : Shape := ⟨2, ![8192, 768]⟩
abbrev S512x768 : Shape := ⟨2, ![512, 768]⟩
abbrev S1x768 : Shape := ⟨2, ![1, 768]⟩
abbrev S512x3072 : Shape := ⟨2, ![512, 3072]⟩
abbrev S1x3072 : Shape := ⟨2, ![1, 3072]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S3072x768, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8192x768, .f32⟩
  | .hbm, ⟨7, _⟩ => ⟨S768, .f32⟩
  | .hbm, ⟨8, _⟩ => ⟨S768x3072, .f32⟩
  | .hbm, ⟨9, _⟩ => ⟨S768x3072, .bf16⟩
  | .hbm, ⟨10, _⟩ => ⟨S3072x768, .f32⟩
  | .hbm, ⟨11, _⟩ => ⟨S3072x768, .bf16⟩
  | .hbm, ⟨12, _⟩ => ⟨S8192x768, .f32⟩
  | .hbm, ⟨13, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768, .f32⟩
  | .local _ .vmem, ⟨3, _⟩ => ⟨S768x3072, .bf16⟩
  | .local _ .vmem, ⟨4, _⟩ => ⟨S3072x768, .bf16⟩
  | .local _ .vmem, ⟨5, _⟩ => ⟨S3072, .f32⟩
  | .local _ .vmem, ⟨6, _⟩ => ⟨S768, .f32⟩
  | .local _ .vmem, ⟨7, _⟩ => ⟨S512x768, .f32⟩
  | .local _ .vmem, ⟨8, _⟩ => ⟨S512x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x2048x768_S8192x768 : S4x2048x768.ShapeCasts S8192x768
  transposes_S3072x768_S768x3072_1_0 : S3072x768.Transposes [1, 0] S768x3072
  bitsLt_bf16_f32 : FTy.bits .bf16 < FTy.bits .f32
  transposes_S768x3072_S3072x768_1_0 : S768x3072.Transposes [1, 0] S3072x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S512x768 : S1x768.Broadcasts S512x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  shapeCasts_S8192x768_S4x2048x768 : S8192x768.ShapeCasts S4x2048x768
  dot_S512x768_S768x3072_S512x3072_1_0_0_1_n_n_wf : DotDims.WF S512x768 S768x3072 S512x3072 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x3072.size a ≤ S768x3072.size a
  hwx0_2 : ∀ i : grid0.Coords, EltTy.bits .bf16 = 32 ∨ (Rect.block (s := S768x3072) S768x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x768.size a ≤ S3072x768.size a
  hwx0_3 : ∀ i : grid0.Coords, EltTy.bits .bf16 = 32 ∨ (Rect.block (s := S3072x768) S3072x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S8192x768.size a
  hwx0_6 : ∀ i : grid0.Coords, EltTy.bits .f32 = 32 ∨ (Rect.block (s := S8192x768) S512x768.size (cc0_transform_6 i) (hinb0_6 i)).WholeWords (EltTy.packing .f32)

variable [Facts₀]

def dot_S512x768_S768x3072_S512x3072_1_0_0_1_n_n : DotDims S512x768 S768x3072 S512x3072 where
  lhsContracting := [1]
  rhsContracting := [0]
  lhsNonContracting := [0]
  rhsNonContracting := [1]
  lhsBatch := []
  rhsBatch := []
  wf := dot_S512x768_S768x3072_S512x3072_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S3072x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S1x1x768 : Shape := ⟨3, ![1, 1, 768]⟩
abbrev S4x2048x3072 : Shape := ⟨3, ![4, 2048, 3072]⟩
abbrev S1x1x3072 : Shape := ⟨3, ![1, 1, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S3072x768, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S4x2048x768, .f32⟩
  | .hbm, ⟨7, _⟩ => ⟨S768, .f32⟩
  | .hbm, ⟨8, _⟩ => ⟨S1x1x768, .f32⟩
  | .hbm, ⟨9, _⟩ => ⟨S4x2048x768, .f32⟩
  | .hbm, ⟨10, _⟩ => ⟨S4x2048x768, .f32⟩
  | .hbm, ⟨11, _⟩ => ⟨S4x2048x3072, .f32⟩
  | .hbm, ⟨12, _⟩ => ⟨S1x1x3072, .f32⟩
  | .hbm, ⟨13, _⟩ => ⟨S4x2048x3072, .f32⟩
  | .hbm, ⟨14, _⟩ => ⟨S4x2048x3072, .f32⟩
  | .hbm, ⟨15, _⟩ => ⟨S_, .f32⟩
  | .hbm, ⟨16, _⟩ => ⟨S4x2048x3072, .f32⟩
  | .hbm, ⟨17, _⟩ => ⟨S4x2048x3072, .f32⟩
  | .hbm, ⟨18, _⟩ => ⟨S4x2048x768, .f32⟩
  | .hbm, ⟨19, _⟩ => ⟨S1x1x768, .f32⟩
  | .hbm, ⟨20, _⟩ => ⟨S4x2048x768, .f32⟩
  | .hbm, ⟨21, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  bcast_S_S4x2048x3072 : S_.BroadcastsInDim S4x2048x3072 (![] : Fin 0 → Fin S4x2048x3072.rank)
  dot_S4x2048x768_S3072x768_S4x2048x3072_2_1_01_0_n_n_wf : DotDims.WF S4x2048x768 S3072x768 S4x2048x3072 [2] [1] [0, 1] [0] [] []
  dot_S4x2048x3072_S768x3072_S4x2048x768_2_1_01_0_n_n_wf : DotDims.WF S4x2048x3072 S768x3072 S4x2048x768 [2] [1] [0, 1] [0] [] []

variable [Facts₀]

def dot_S4x2048x768_S3072x768_S4x2048x3072_2_1_01_0_n_n : DotDims S4x2048x768 S3072x768 S4x2048x3072 where
  lhsContracting := [2]
  rhsContracting := [1]
  lhsNonContracting := [0, 1]
  rhsNonContracting := [0]
  lhsBatch := []
  rhsBatch := []
  wf := dot_S4x2048x768_S3072x768_S4x2048x3072_2_1_01_0_n_n_wf
def dot_S4x2048x3072_S768x3072_S4x2048x768_2_1_01_0_n_n : DotDims S4x2048x3072 S768x3072 S4x2048x768 where
  lhsContracting := [2]
  rhsContracting := [1]
  lhsNonContracting := [0, 1]
  rhsNonContracting := [0]
  lhsBatch := []
  rhsBatch := []
  wf := dot_S4x2048x3072_S768x3072_S4x2048x768_2_1_01_0_n_n_wf

class Facts : Prop extends Facts₀ where

variable [Facts]
-- ==== Proof.FeedForward.lean ====
/-
  The function both programs compute, entry by entry, on the extended reals.

  A token is a row of 768 numbers. Its features are the products `cos x_k · c_k` of the cosine of each number with a
  per-coordinate factor; a first affine layer takes the 768 features to 3072 hidden values, each hidden value is
  replaced by its maximum with zero, and a second affine layer takes the 3072 hidden values back to 768 numbers:

      out_e = ( ∑_f max ( (∑_k q_k · A_{k f}) + β_f ) 0 · B_{f e} ) + γ_e .

  `entry` is that expression for one output coordinate, over arbitrary finite index types for the two contracted
  axes. `tokens` reads it over the batch laid out as 4 × 2048 tokens with the two weight matrices stored
  output-major (`W1 f k`, `W2 e f`) and the factor `c = cos p`; `rows` reads it over the same tokens laid out as
  8192 rows, with the factor and the two weight matrices (stored input-major) given as they are. The two are the
  same numbers: row `2048 b + s` of the flat layout is token `(b, s)` (`tokens_eq_rows`).

  The zero the hidden values are compared with is kept as the 32-bit pattern of `+0.0`; nothing here depends on
  which extended real it denotes.
-/
import Idealize.ShloMosaic.PureOps.Ideal
import Idealize.ShloMosaic.Lib.ValueIdx

noncomputable section

open scoped BigOperators
open Idealize.ShloMosaic Idealize.ShloMosaic.ValueIdx

namespace Cert.FeedForward

/-- One output coordinate: `q` the token's features, `A` the first layer's weights (feature, hidden), `β` its bias,
    `Bcol` the second layer's weights into this output coordinate, `γ` the second bias there. -/
def entry {K H : Type} [Fintype K] [Fintype H] (q : K → EReal) (A : K → H → EReal) (β : H → EReal)
    (Bcol : H → EReal) (γ : EReal) : EReal :=
  (∑ f : H, max ((∑ k : K, q k * A k f) + β f) (Ideal.ofBits .f32 0x00000000#32) * Bcol f) + γ

/-- The result over 4 × 2048 tokens, at token `(b, s)` and output coordinate `e`: the weights output-major, the
    factor the cosine of `p`. -/
def tokensAt (x : (⟨3, ![4, 2048, 768]⟩ : Shape).Idx → EReal) (p : (⟨1, ![768]⟩ : Shape).Idx → EReal)
    (W1 : (⟨2, ![3072, 768]⟩ : Shape).Idx → EReal) (b1 : (⟨1, ![3072]⟩ : Shape).Idx → EReal)
    (W2 : (⟨2, ![768, 3072]⟩ : Shape).Idx → EReal) (b2 : (⟨1, ![768]⟩ : Shape).Idx → EReal)
    (b : Fin 4) (s : Fin 2048) (e : Fin 768) : EReal :=
  entry (fun k : Fin 768 => Ideal.cos (x (ix3 b s k)) * Ideal.cos (p (ix1 k))) (fun (k : Fin 768) (f : Fin 3072) => W1 (ix2 f k))
    (fun f : Fin 3072 => b1 (ix1 f)) (fun f : Fin 3072 => W2 (ix2 e f)) (b2 (ix1 e))

/-- The same as an array over the token layout. -/
def tokens (x : (⟨3, ![4, 2048, 768]⟩ : Shape).Idx → EReal) (p : (⟨1, ![768]⟩ : Shape).Idx → EReal)
    (W1 : (⟨2, ![3072, 768]⟩ : Shape).Idx → EReal) (b1 : (⟨1, ![3072]⟩ : Shape).Idx → EReal)
    (W2 : (⟨2, ![768, 3072]⟩ : Shape).Idx → EReal) (b2 : (⟨1, ![768]⟩ : Shape).Idx → EReal) :
    (⟨3, ![4, 2048, 768]⟩ : Shape).Idx → EReal :=
  fun i => tokensAt x p W1 b1 W2 b2 ⟨(i 0).val, (i 0).isLt⟩ ⟨(i 1).val, (i 1).isLt⟩ ⟨(i 2).val, (i 2).isLt⟩

theorem tokens_ix3 (x : (⟨3, ![4, 2048, 768]⟩ : Shape).Idx → EReal) (p : (⟨1, ![768]⟩ : Shape).Idx → EReal)
    (W1 : (⟨2, ![3072, 768]⟩ : Shape).Idx → EReal) (b1 : (⟨1, ![3072]⟩ : Shape).Idx → EReal)
    (W2 : (⟨2, ![768, 3072]⟩ : Shape).Idx → EReal) (b2 : (⟨1, ![768]⟩ : Shape).Idx → EReal)
    (b : Fin 4) (s : Fin 2048) (e : Fin 768) :
    tokens x p W1 b1 W2 b2 (ix3 b s e) = tokensAt x p W1 b1 W2 b2 b s e := rfl

/-- The result over 8192 rows, at row `r` and output coordinate `e`: the factor `c` and the two weight matrices
    (input-major) as given. -/
def rowsAt (xr : (⟨2, ![8192, 768]⟩ : Shape).Idx → EReal) (c : (⟨1, ![768]⟩ : Shape).Idx → EReal)
    (A : (⟨2, ![768, 3072]⟩ : Shape).Idx → EReal) (B : (⟨2, ![3072, 768]⟩ : Shape).Idx → EReal)
    (b1 : (⟨1, ![3072]⟩ : Shape).Idx → EReal) (b2 : (⟨1, ![768]⟩ : Shape).Idx → EReal)
    (r : Fin 8192) (e : Fin 768) : EReal :=
  entry (fun k : Fin 768 => Ideal.cos (xr (ix2 r k)) * c (ix1 k)) (fun (k : Fin 768) (f : Fin 3072) => A (ix2 k f))
    (fun f : Fin 3072 => b1 (ix1 f)) (fun f : Fin 3072 => B (ix2 f e)) (b2 (ix1 e))

/-- The same as an array over the row layout. -/
def rows (xr : (⟨2, ![8192, 768]⟩ : Shape).Idx → EReal) (c : (⟨1, ![768]⟩ : Shape).Idx → EReal)
    (A : (⟨2, ![768, 3072]⟩ : Shape).Idx → EReal) (B : (⟨2, ![3072, 768]⟩ : Shape).Idx → EReal)
    (b1 : (⟨1, ![3072]⟩ : Shape).Idx → EReal) (b2 : (⟨1, ![768]⟩ : Shape).Idx → EReal) :
    (⟨2, ![8192, 768]⟩ : Shape).Idx → EReal :=
  fun j => rowsAt xr c A B b1 b2 ⟨(j 0).val, (j 0).isLt⟩ ⟨(j 1).val, (j 1).isLt⟩

theorem rows_ix2 (xr : (⟨2, ![8192, 768]⟩ : Shape).Idx → EReal) (c : (⟨1, ![768]⟩ : Shape).Idx → EReal)
    (A : (⟨2, ![768, 3072]⟩ : Shape).Idx → EReal) (B : (⟨2, ![3072, 768]⟩ : Shape).Idx → EReal)
    (b1 : (⟨1, ![3072]⟩ : Shape).Idx → EReal) (b2 : (⟨1, ![768]⟩ : Shape).Idx → EReal) (r : Fin 8192) (e : Fin 768) :
    rows xr c A B b1 b2 (ix2 r e) = rowsAt xr c A B b1 b2 r e := rfl

/-- Row `2048 b + s` of the flat layout is token `(b, s)`: when the rows are the tokens flattened, the factor is the
    cosine of `p` and the input-major matrices are the transposes of the output-major ones, the two readings agree. -/
theorem tokensAt_eq_rowsAt (x : (⟨3, ![4, 2048, 768]⟩ : Shape).Idx → EReal) (p : (⟨1, ![768]⟩ : Shape).Idx → EReal)
    (W1 : (⟨2, ![3072, 768]⟩ : Shape).Idx → EReal) (b1 : (⟨1, ![3072]⟩ : Shape).Idx → EReal)
    (W2 : (⟨2, ![768, 3072]⟩ : Shape).Idx → EReal) (b2 : (⟨1, ![768]⟩ : Shape).Idx → EReal)
    (xr : (⟨2, ![8192, 768]⟩ : Shape).Idx → EReal) (c : (⟨1, ![768]⟩ : Shape).Idx → EReal)
    (A : (⟨2, ![768, 3072]⟩ : Shape).Idx → EReal) (B : (⟨2, ![3072, 768]⟩ : Shape).Idx → EReal)
    (b : Fin 4) (s : Fin 2048) (e : Fin 768) (r : Fin 8192)
    (hx : ∀ k : Fin 768, xr (ix2 r k) = x (ix3 b s k)) (hc : ∀ k : Fin 768, c (ix1 k) = Ideal.cos (p (ix1 k)))
    (hA : ∀ (k : Fin 768) (f : Fin 3072), A (ix2 k f) = W1 (ix2 f k))
    (hB : ∀ (f : Fin 3072) (e' : Fin 768), B (ix2 f e') = W2 (ix2 e' f)) :
    tokensAt x p W1 b1 W2 b2 b s e = rowsAt xr c A B b1 b2 r e := by
  unfold tokensAt rowsAt
  simp only [hx, hc, hA, hB]

end Cert.FeedForward

end
-- ==== Proof.ReferenceValue.lean ====
/-
  The reference program computes `Cert.FeedForward.tokens`.

  Its run ends with the result array at a composition of array operations of the six arguments; read at a token
  `(b, s)` and an output coordinate `e`, operation by operation, that composition is

      ( ∑_f max ( (∑_k cos x_{b s k} · cos p_k · W1_{f k}) + b1_f ) 0 · W2_{e f} ) + b2_e :

  each of the two contractions is a sum over its one contracted coordinate, each bias and the cosine of `p` are
  broadcast along the token axes, so they are read at the trailing coordinate alone, and the zero is a broadcast
  scalar. The lemmas before the theorem say which entry of which argument each composed index function names.
-/
import proofs.«164454_j65481071409452_2_alg».proof.Proof.Gen.ReferenceIdeal.Read
import proofs.«164454_j65481071409452_2_alg».proof.Proof.FeedForward

noncomputable section

open scoped BigOperators
open Idealize.ShloMosaic Idealize.ShloMosaic.ValueIdx

namespace Cert.ReferenceIdeal.Tokens

open Cert.ReferenceIdeal Cert.ReferenceIdeal.Read

/-- The second contraction at `(b, s, e)` pairs hidden value `(b, s, f)` … -/
theorem hidden_index (b : Fin 4) (s : Fin 2048) (e : Fin 768) (f : Fin 3072) :
    lidx_main_v10 (ix3 b s e) f = ix3 b s f :=
  funext fun a => Fin.ext (by match a with | ⟨0, _⟩ => rfl | ⟨1, _⟩ => rfl | ⟨2, _⟩ => rfl)

/-- … with entry `(e, f)` of the second weight matrix. -/
theorem second_weight_index (b : Fin 4) (s : Fin 2048) (e : Fin 768) (f : Fin 3072) :
    ridx_main_v10 (ix3 b s e) f = ix2 e f :=
  funext fun a => Fin.ext (by match a with | ⟨0, _⟩ => rfl | ⟨1, _⟩ => rfl)

/-- The second bias, broadcast over the tokens, is read at the output coordinate. -/
theorem second_bias_index (b : Fin 4) (s : Fin 2048) (e : Fin 768) :
    idx_main_v11 (idx_main_v12 (ix3 b s e)) = ix1 e :=
  funext fun a => Fin.ext (by match a with | ⟨0, _⟩ => rfl)

/-- The first contraction at `(b, s, f)` pairs feature `(b, s, k)` … -/
theorem feature_index (b : Fin 4) (s : Fin 2048) (f : Fin 3072) (k : Fin 768) :
    lidx_main_v5 (ix3 b s f) k = ix3 b s k :=
  funext fun a => Fin.ext (by match a with | ⟨0, _⟩ => rfl | ⟨1, _⟩ => rfl | ⟨2, _⟩ => rfl)

/-- … with entry `(f, k)` of the first weight matrix. -/
theorem first_weight_index (b : Fin 4) (s : Fin 2048) (f : Fin 3072) (k : Fin 768) :
    ridx_main_v5 (ix3 b s f) k = ix2 f k :=
  funext fun a => Fin.ext (by match a with | ⟨0, _⟩ => rfl | ⟨1, _⟩ => rfl)

/-- The first bias, broadcast over the tokens, is read at the hidden coordinate. -/
theorem first_bias_index (b : Fin 4) (s : Fin 2048) (f : Fin 3072) :
    idx_main_v6 (idx_main_v7 (ix3 b s f)) = ix1 f :=
  funext fun a => Fin.ext (by match a with | ⟨0, _⟩ => rfl)

/-- The cosine of `p`, broadcast over the tokens, is read at the feature coordinate. -/
theorem factor_index (b : Fin 4) (s : Fin 2048) (k : Fin 768) :
    idx_main_v2 (idx_main_v3 (ix3 b s k)) = ix1 k :=
  funext fun a => Fin.ext (by match a with | ⟨0, _⟩ => rfl)

/-- A feature of the reference: the cosine of the token's number times the cosine of `p`. -/
theorem feature_eq (x0 : (⟨S4x2048x768, .f32⟩ : BufTy).Contents (Elt Ideal)) (x1 : (⟨S768, .f32⟩ : BufTy).Contents (Elt Ideal))
    (b : Fin 4) (s : Fin 2048) (k : Fin 768) :
    val_main_v4 (F := Ideal) x0 x1 (ix3 b s k) = Ideal.cos (x0 (ix3 b s k)) * Ideal.cos (x1 (ix1 k)) := by
  rw [val_main_v4_apply, val_main_v0_apply, val_main_v3_apply, val_main_v2_apply, val_main_v1_apply, factor_index]
  rfl

/-- A hidden value of the reference: the first affine layer's value, then its maximum with zero. -/
theorem hidden_eq (x0 : (⟨S4x2048x768, .f32⟩ : BufTy).Contents (Elt Ideal)) (x1 : (⟨S768, .f32⟩ : BufTy).Contents (Elt Ideal))
    (x2 : (⟨S3072x768, .f32⟩ : BufTy).Contents (Elt Ideal)) (x3 : (⟨S3072, .f32⟩ : BufTy).Contents (Elt Ideal))
    (b : Fin 4) (s : Fin 2048) (f : Fin 3072) :
    val_main_v9 (F := Ideal) x0 x1 x2 x3 (ix3 b s f)
      = max ((∑ k : Fin 768, Ideal.cos (x0 (ix3 b s k)) * Ideal.cos (x1 (ix1 k)) * x2 (ix2 f k)) + x3 (ix1 f))
          (Ideal.ofBits .f32 0x00000000#32) := by
  rw [val_main_v9_apply, val_main_v8_apply, val_main_v5_apply, val_main_v7_apply, val_main_v6_apply,
    val_main_call0_v0_apply, val_main_call0_cst_apply, first_bias_index]
  refine congrArg₂ max (congrArg₂ (· + ·) (Finset.sum_congr rfl fun k _ => ?_) rfl) rfl
  rw [feature_index, first_weight_index, feature_eq]

/-- The reference's result is the feed-forward map over the token layout. -/
theorem reference_eq (x0 : (⟨S4x2048x768, .f32⟩ : BufTy).Contents (Elt Ideal)) (x1 : (⟨S768, .f32⟩ : BufTy).Contents (Elt Ideal))
    (x2 : (⟨S3072x768, .f32⟩ : BufTy).Contents (Elt Ideal)) (x3 : (⟨S3072, .f32⟩ : BufTy).Contents (Elt Ideal))
    (x4 : (⟨S768x3072, .f32⟩ : BufTy).Contents (Elt Ideal)) (x5 : (⟨S768, .f32⟩ : BufTy).Contents (Elt Ideal)) :
    val_main_v13 (F := Ideal) x0 x1 x2 x3 x4 x5 = Cert.FeedForward.tokens x0 x1 x2 x3 x4 x5 := by
  funext i
  obtain ⟨b, s, e, rfl⟩ : ∃ (b : Fin 4) (s : Fin 2048) (e : Fin 768), i = ix3 b s e := ⟨i 0, i 1, i 2, eq_ix3 i⟩
  rw [Cert.FeedForward.tokens_ix3]
  unfold Cert.FeedForward.tokensAt Cert.FeedForward.entry
  rw [val_main_v13_apply, val_main_v10_apply, val_main_v12_apply, val_main_v11_apply, second_bias_index]
  refine congrArg₂ (· + ·) (Finset.sum_congr rfl fun f _ => ?_) rfl
  rw [hidden_index, second_weight_index, hidden_eq]

end Cert.ReferenceIdeal.Tokens

end
-- ==== Proof.KernelPayload.lean ====
/-
  What the kernel body stores, read at one entry.

  At a grid point the body holds a block of 512 rows `x`, the factor `c`, the two weight matrices `A` (768 × 3072) and
  `B` (3072 × 768) and the two biases. It forms the features `cos x · c` (the factor repeated down the rows), multiplies
  them by `A` into a zero accumulator, adds the first bias (repeated down the rows), takes the maximum with zero,
  multiplies by `B` into a zero accumulator and adds the second bias. The changes of number format on the way into the
  two products are the identity on the extended reals, and a product into a zero accumulator read at `(p, j)` is the
  sum over the contracted coordinate of the products of row `p` of the left factor with column `j` of the right one.
  So the stored block at `(p, e)` is `Cert.FeedForward.entry` of row `p`'s features: `stored_apply`.
-/
import proofs.«164454_j65481071409452_2_alg».proof.Proof.Gen.KernelIdeal.Skeleton
import proofs.«164454_j65481071409452_2_alg».proof.Proof.FeedForward
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- A vector given a leading unit axis and then repeated down `a` rows reads, at `(p, j)`, the vector at `j`. -/
theorem repeated_row_apply {a b : ℕ} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (j : Fin b) :
    broadcastTo ⟨2, ![a, b]⟩ (shapeCast ⟨2, ![1, b]⟩ v h1) h2 (ix2 p j) = v (ix1 j) :=
  (broadcastTo_1b_ab_apply _ h2 p j).trans (shapeCast_a_1a_apply v h1 0 j)

/-- In the first product the left factor is read in the output's row … -/
theorem first_left_row (i : S512x3072.Idx) (q : (dot_S512x768_S768x3072_S512x3072_1_0_0_1_n_n).contr.Idx) :
    ((dot_S512x768_S768x3072_S512x3072_1_0_0_1_n_n).lhsIdx i q 0).val = (i 0).val := by
  unfold DotDims.lhsIdx
  rw [dif_neg (show ¬(0 : Fin S512x768.rank) ∈ (dot_S512x768_S768x3072_S512x3072_1_0_0_1_n_n).lhsBatch by decide),
    dif_pos (show (0 : Fin S512x768.rank) ∈ (dot_S512x768_S768x3072_S512x3072_1_0_0_1_n_n).lhsNonContracting by decide)]
  rfl

/-- … and the right factor in the output's column. -/
theorem first_right_col (i : S512x3072.Idx) (q : (dot_S512x768_S768x3072_S512x3072_1_0_0_1_n_n).contr.Idx) :
    ((dot_S512x768_S768x3072_S512x3072_1_0_0_1_n_n).rhsIdx i q 1).val = (i 1).val := by
  unfold DotDims.rhsIdx
  rw [dif_neg (show ¬(1 : Fin S768x3072.rank) ∈ (dot_S512x768_S768x3072_S512x3072_1_0_0_1_n_n).rhsBatch by decide),
    dif_pos (show (1 : Fin S768x3072.rank) ∈ (dot_S512x768_S768x3072_S512x3072_1_0_0_1_n_n).rhsNonContracting by decide)]
  rfl

/-- The same for the second product. -/
theorem second_left_row (i : S512x768.Idx) (q : (dot_S512x3072_S3072x768_S512x768_1_0_0_1_n_n).contr.Idx) :
    ((dot_S512x3072_S3072x768_S512x768_1_0_0_1_n_n).lhsIdx i q 0).val = (i 0).val := by
  unfold DotDims.lhsIdx
  rw [dif_neg (show ¬(0 : Fin S512x3072.rank) ∈ (dot_S512x3072_S3072x768_S512x768_1_0_0_1_n_n).lhsBatch by decide),
    dif_pos (show (0 : Fin S512x3072.rank) ∈ (dot_S512x3072_S3072x768_S512x768_1_0_0_1_n_n).lhsNonContracting by decide)]
  rfl

theorem second_right_col (i : S512x768.Idx) (q : (dot_S512x3072_S3072x768_S512x768_1_0_0_1_n_n).contr.Idx) :
    ((dot_S512x3072_S3072x768_S512x768_1_0_0_1_n_n).rhsIdx i q 1).val = (i 1).val := by
  unfold DotDims.rhsIdx
  rw [dif_neg (show ¬(1 : Fin S3072x768.rank) ∈ (dot_S512x3072_S3072x768_S512x768_1_0_0_1_n_n).rhsBatch by decide),
    dif_pos (show (1 : Fin S3072x768.rank) ∈ (dot_S512x3072_S3072x768_S512x768_1_0_0_1_n_n).rhsNonContracting by decide)]
  rfl

/-- The first product, features times `A`, into a zero accumulator: at `(p, f)` the sum over the 768 features. -/
theorem first_product_apply (l : FVec Ideal S512x768 .bf16) (r : FVec Ideal S768x3072 .bf16) (p : Fin 512) (f : Fin 3072) :
    matmul dot_S512x768_S768x3072_S512x3072_1_0_0_1_n_n none l r (constant S512x3072 .f32 0x00000000#32) (ix2 p f)
      = ∑ k : Fin 768, l (ix2 p k) * r (ix2 k f) := by
  refine (Ideal.matmul_constant_zero_apply dot_S512x768_S768x3072_S512x3072_1_0_0_1_n_n none l r (ix2 p f)).trans ?_
  rw [← Equiv.sum_comp (contrEquiv1 dot_S512x768_S768x3072_S512x3072_1_0_0_1_n_n 768 rfl rfl).symm]
  refine Finset.sum_congr rfl fun k _ => ?_
  have hk := contrEquiv1_symm_val dot_S512x768_S768x3072_S512x3072_1_0_0_1_n_n 768 rfl rfl k
  have el : (dot_S512x768_S768x3072_S512x3072_1_0_0_1_n_n).lhsIdx (ix2 p f) ((contrEquiv1 dot_S512x768_S768x3072_S512x3072_1_0_0_1_n_n 768 rfl rfl).symm k) = ix2 p k :=
    funext fun a => Fin.ext (by
      match a with
      | ⟨0, _⟩ => exact first_left_row _ _
      | ⟨1, _⟩ => exact ((dot_S512x768_S768x3072_S512x3072_1_0_0_1_n_n).lhsIdx_val_of_single rfl _ _).trans hk)
  have er : (dot_S512x768_S768x3072_S512x3072_1_0_0_1_n_n).rhsIdx (ix2 p f) ((contrEquiv1 dot_S512x768_S768x3072_S512x3072_1_0_0_1_n_n 768 rfl rfl).symm k) = ix2 k f :=
    funext fun a => Fin.ext (by
      match a with
      | ⟨0, _⟩ => exact ((dot_S512x768_S768x3072_S512x3072_1_0_0_1_n_n).rhsIdx_val_of_single rfl _ _).trans hk
      | ⟨1, _⟩ => exact first_right_col _ _)
  rw [el, er]

/-- The second product, hidden values times `B`, into a zero accumulator: at `(p, e)` the sum over the 3072 hidden
    values. -/
theorem second_product_apply (l : FVec Ideal S512x3072 .bf16) (r : FVec Ideal S3072x768 .bf16) (p : Fin 512) (e : Fin 768) :
    matmul dot_S512x3072_S3072x768_S512x768_1_0_0_1_n_n none l r (constant S512x768 .f32 0x00000000#32) (ix2 p e)
      = ∑ f : Fin 3072, l (ix2 p f) * r (ix2 f e) := by
  refine (Ideal.matmul_constant_zero_apply dot_S512x3072_S3072x768_S512x768_1_0_0_1_n_n none l r (ix2 p e)).trans ?_
  rw [← Equiv.sum_comp (contrEquiv1 dot_S512x3072_S3072x768_S512x768_1_0_0_1_n_n 3072 rfl rfl).symm]
  refine Finset.sum_congr rfl fun f _ => ?_
  have hk := contrEquiv1_symm_val dot_S512x3072_S3072x768_S512x768_1_0_0_1_n_n 3072 rfl rfl f
  have el : (dot_S512x3072_S3072x768_S512x768_1_0_0_1_n_n).lhsIdx (ix2 p e) ((contrEquiv1 dot_S512x3072_S3072x768_S512x768_1_0_0_1_n_n 3072 rfl rfl).symm f) = ix2 p f :=
    funext fun a => Fin.ext (by
      match a with
      | ⟨0, _⟩ => exact second_left_row _ _
      | ⟨1, _⟩ => exact ((dot_S512x3072_S3072x768_S512x768_1_0_0_1_n_n).lhsIdx_val_of_single rfl _ _).trans hk)
  have er : (dot_S512x3072_S3072x768_S512x768_1_0_0_1_n_n).rhsIdx (ix2 p e) ((contrEquiv1 dot_S512x3072_S3072x768_S512x768_1_0_0_1_n_n 3072 rfl rfl).symm f) = ix2 f e :=
    funext fun a => Fin.ext (by
      match a with
      | ⟨0, _⟩ => exact ((dot_S512x3072_S3072x768_S512x768_1_0_0_1_n_n).rhsIdx_val_of_single rfl _ _).trans hk
      | ⟨1, _⟩ => exact second_right_col _ _)
  rw [el, er]

/-- The stored block at `(p, e)`. -/
theorem stored_apply (x : Vec Ideal S512x768 .f32) (c : Vec Ideal S768 .f32) (A : Vec Ideal S768x3072 .bf16)
    (b1 : Vec Ideal S3072 .f32) (B : Vec Ideal S3072x768 .bf16) (b2 : Vec Ideal S768 .f32) (p : Fin 512) (e : Fin 768) :
    k0_pay1 (F := Ideal) x c A b1 B b2 (ix2 p e)
      = Cert.FeedForward.entry (fun k : Fin 768 => Ideal.cos (x (ix2 p k)) * c (ix1 k)) (fun (k : Fin 768) (f : Fin 3072) => A (ix2 k f))
          (fun f : Fin 3072 => b1 (ix1 f)) (fun f : Fin 3072 => B (ix2 f e)) (b2 (ix1 e)) := by
  unfold k0_pay1 Cert.FeedForward.entry
  dsimp only
  simp only [shapeCast_self]
  refine (addf_apply _ _ _).trans (congrArg₂ (· + ·) ?_ (repeated_row_apply b2 _ _ p e))
  refine (second_product_apply _ _ p e).trans (Finset.sum_congr rfl fun f _ => congrArg₂ (· * ·) ?_ rfl)
  refine (truncf_apply (ψ := .bf16) _ bitsLt_bf16_f32 (ix2 p f)).trans ((maximumf_apply _ _ _).trans (congrArg₂ max ?_ rfl))
  refine (addf_apply _ _ _).trans (congrArg₂ (· + ·) ?_ (repeated_row_apply b1 _ _ p f))
  refine (first_product_apply _ _ p f).trans (Finset.sum_congr rfl fun k _ => congrArg₂ (· * ·) ?_ rfl)
  exact (truncf_apply (ψ := .bf16) _ bitsLt_bf16_f32 (ix2 p k)).trans ((mulf_apply _ _ _).trans (congrArg₂ (· * ·) rfl (repeated_row_apply c _ _ p k)))

end Cert.KernelIdeal.Payload

end
-- ==== Proof.KernelArrays.lean ====
/-
  The arrays the kernel's region finds, read at an entry.

  Before the region the host flattens the 4 × 2048 tokens into 8192 rows (row `2048 b + s` is token `(b, s)`), takes
  the cosine of `p`, and transposes each weight matrix (the change of number format after the transpose is the
  identity on the extended reals). After the region it splits the 8192 result rows back into 4 × 2048 tokens.
  The two biases reach the region as they were launched.
-/
import proofs.«164454_j65481071409452_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Arrays

open Cert.KernelIdeal Cert.KernelIdeal.Gen

variable (m : (ℓ : Loc nD τ sig) → Buf (Elt Ideal) ℓ)

/-- Flattening the tokens into rows: row `r = 2048 b + s` at `k` is token `(b, s)` at `k`. -/
theorem flatten_apply (x : S4x2048x768.Idx → EReal) (h : S4x2048x768.ShapeCasts S8192x768)
    (b : Fin 4) (s : Fin 2048) (k : Fin 768) (r : Fin 8192) (hr : r.val = 2048 * b.val + s.val) :
    shapeCast S8192x768 x h (ix2 r k) = x (ix3 b s k) :=
  shapeCast_apply x h _ _ (by
    rw [Shape.rowMajor_val_two, Shape.rowMajor_val_three]
    show (b.val * 2048 + s.val) * 768 + k.val = r.val * 768 + k.val
    rw [hr]; omega)

/-- Splitting rows back into tokens: token `(b, s)` at `e` is row `r = 2048 b + s` at `e`. -/
theorem split_apply (y : S8192x768.Idx → EReal) (h : S8192x768.ShapeCasts S4x2048x768)
    (b : Fin 4) (s : Fin 2048) (e : Fin 768) (r : Fin 8192) (hr : r.val = 2048 * b.val + s.val) :
    shapeCast S4x2048x768 y h (ix3 b s e) = y (ix2 r e) :=
  shapeCast_apply y h _ _ (by
    rw [Shape.rowMajor_val_two, Shape.rowMajor_val_three]
    show r.val * 768 + e.val = (b.val * 2048 + s.val) * 768 + e.val
    rw [hr]; omega)

/-- The rows the region finds are the launched tokens, flattened. -/
theorem rows_entry (c : Dev nD) :
    (V m c main_v0 : S8192x768.Idx → EReal)
      = shapeCast S8192x768 (m ((c : Thread nD τ).loc main_arg0)) shapeCasts_S4x2048x768_S8192x768 := by
  show StableHlo.after hostOps0 (fun b => m (c, b)) (Proc.devRef .tc main_v0) = _
  after_results
  rfl

/-- The factor the region finds is the cosine of the launched `p`. -/
theorem factor_entry (c : Dev nD) :
    (V m c main_v1 : S768.Idx → EReal) = Host.cos (F := Ideal) (s := S768) (φ := .f32) (m ((c : Thread nD τ).loc main_arg1)) := by
  show StableHlo.after hostOps0 (fun b => m (c, b)) (Proc.devRef .tc main_v1) = _
  after_results

/-- The first weight matrix the region finds is the launched one, transposed. -/
theorem first_weights_entry (c : Dev nD) :
    (V m c main_v3 : S768x3072.Idx → EReal)
      = truncf (F := Ideal) (s := S768x3072) (φ := .f32) .bf16 (transpose S768x3072 [1, 0] (m ((c : Thread nD τ).loc main_arg2) : S3072x768.Idx → EReal) transposes_S3072x768_S768x3072_1_0) bitsLt_bf16_f32 := by
  show StableHlo.after hostOps0 (fun b => m (c, b)) (Proc.devRef .tc main_v3) = _
  after_results

/-- The second weight matrix the region finds is the launched one, transposed. -/
theorem second_weights_entry (c : Dev nD) :
    (V m c main_v5 : S3072x768.Idx → EReal)
      = truncf (F := Ideal) (s := S3072x768) (φ := .f32) .bf16 (transpose S3072x768 [1, 0] (m ((c : Thread nD τ).loc main_arg4) : S768x3072.Idx → EReal) transposes_S768x3072_S3072x768_1_0) bitsLt_bf16_f32 := by
  show StableHlo.after hostOps0 (fun b => m (c, b)) (Proc.devRef .tc main_v5) = _
  after_results

theorem rows_entry_apply (c : Dev nD) (b : Fin 4) (s : Fin 2048) (k : Fin 768) (r : Fin 8192) (hr : r.val = 2048 * b.val + s.val) :
    (V m c main_v0 : S8192x768.Idx → EReal) (ix2 r k) = (m ((c : Thread nD τ).loc main_arg0) : S4x2048x768.Idx → EReal) (ix3 b s k) := by
  rw [rows_entry]; exact flatten_apply _ _ b s k r hr

theorem factor_entry_apply (c : Dev nD) (k : Fin 768) :
    (V m c main_v1 : S768.Idx → EReal) (ix1 k) = Ideal.cos ((m ((c : Thread nD τ).loc main_arg1) : S768.Idx → EReal) (ix1 k)) := by
  rw [factor_entry]; rfl

theorem first_weights_entry_apply (c : Dev nD) (k : Fin 768) (f : Fin 3072) :
    (V m c main_v3 : S768x3072.Idx → EReal) (ix2 k f) = (m ((c : Thread nD τ).loc main_arg2) : S3072x768.Idx → EReal) (ix2 f k) := by
  rw [first_weights_entry]
  exact (truncf_apply (ψ := .bf16) _ bitsLt_bf16_f32 (ix2 k f)).trans (transpose_ix2_apply _ _ k f)

theorem second_weights_entry_apply (c : Dev nD) (f : Fin 3072) (e : Fin 768) :
    (V m c main_v5 : S3072x768.Idx → EReal) (ix2 f e) = (m ((c : Thread nD τ).loc main_arg4) : S768x3072.Idx → EReal) (ix2 e f) := by
  rw [second_weights_entry]
  exact (truncf_apply (ψ := .bf16) _ bitsLt_bf16_f32 (ix2 f e)).trans (transpose_ix2_apply _ _ f e)

end Cert.KernelIdeal.Arrays

end
-- ==== Proof.KernelValue.lean ====
/-
  The kernel's result, as one function of its arguments.

  The grid has 16 points; point `t` reads rows `512 t … 512 t + 511` of the flattened tokens and every other array
  whole, and writes rows `512 t … 512 t + 511` of the result. What it writes at `(p, e)` is `Cert.FeedForward.entry`
  of row `512 t + p`'s features (`Payload.stored_apply`), which is entry `(512 t + p, e)` of `Cert.FeedForward.rows` of
  the arrays the region finds: each point writes back its block of ONE function of the row index (`written_back`).
  Row `r` lies in the block of point `r / 512`, so the 16 blocks cover the result array (`covered`) and the array
  ends holding that function (`result_rows`). The host then splits the rows back into tokens; with the arrays the
  region found read back to the launched arguments, the program's result is `Cert.FeedForward.tokens` of the launched
  arguments (`result_tokens`), and `run` restates the kernel's run with that result.
-/
import proofs.«164454_j65481071409452_2_alg».proof.Proof.Gen.KernelIdeal.Frame
import proofs.«164454_j65481071409452_2_alg».proof.Proof.FeedForward
import proofs.«164454_j65481071409452_2_alg».proof.Proof.KernelPayload
import proofs.«164454_j65481071409452_2_alg».proof.Proof.KernelArrays
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Which block each window is on at point `t`: the rows and the result move with the point, everything else stays
    at its one block. -/
theorem block_indices : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val ∧ win0_6.index t (1 : Fin 2) = 0 :=
  (by decide +kernel : ∀ t : Fin grid0.N, _)

/-- The feed-forward map over the rows, of the arrays as the region finds them. -/
abbrev rowsOf (c : Dev nD) : S8192x768.Idx → EReal :=
  Cert.FeedForward.rows (V m c main_v0) (V m c main_v1) (V m c main_v3) (V m c main_v5) (V m c main_arg3) (V m c main_arg5)

/-- A stored block whose inputs are: rows `r = 512 t + p` of `X0` and the other arrays whole, is at `(p, e)` the map
    over the rows at `(r, e)`. -/
theorem stored_eq_rows (X0 : S8192x768.Idx → EReal) (X1 : S768.Idx → EReal) (X2 : S768x3072.Idx → EReal)
    (X3 : S3072x768.Idx → EReal) (X4 : S3072.Idx → EReal) (X5 : S768.Idx → EReal)
    (x0 : Vec Ideal S512x768 .f32) (x1 : Vec Ideal S768 .f32) (x2 : Vec Ideal S768x3072 .bf16)
    (x3 : Vec Ideal S3072x768 .bf16) (x4 : Vec Ideal S3072 .f32) (x5 : Vec Ideal S768 .f32)
    (p : Fin 512) (e : Fin 768) (r : Fin 8192)
    (h0 : ∀ k : Fin 768, x0 (ix2 p k) = X0 (ix2 r k)) (h1 : ∀ k : Fin 768, x1 (ix1 k) = X1 (ix1 k))
    (h2 : ∀ (k : Fin 768) (f : Fin 3072), x2 (ix2 k f) = X2 (ix2 k f))
    (h3 : ∀ (f : Fin 3072) (e' : Fin 768), x3 (ix2 f e') = X3 (ix2 f e'))
    (h4 : ∀ f : Fin 3072, x4 (ix1 f) = X4 (ix1 f)) (h5 : ∀ e' : Fin 768, x5 (ix1 e') = X5 (ix1 e')) :
    k0_pay1 (F := Ideal) x0 x1 x2 x4 x3 x5 (ix2 p e) = Cert.FeedForward.rows X0 X1 X2 X3 X4 X5 (ix2 r e) := by
  rw [Payload.stored_apply, Cert.FeedForward.rows_ix2]
  unfold Cert.FeedForward.rowsAt
  simp only [h0, h1, h2, h3, h4, h5]

/-- The row block at point `t`: its row `p` is row `512 t + p` of the rows the region finds. -/
theorem row_block_apply (c : Dev nD) (t : Fin cfg0.N) (p : Fin 512) (k : Fin 768) (r : Fin 8192) (hr : r.val = 512 * t.val + p.val) :
    (iblk m c 0 t : Vec Ideal S512x768 .f32) (ix2 p k) = (V m c main_v0 : S8192x768.Idx → EReal) (ix2 r k) := by
  obtain ⟨e0, e1, -⟩ := block_indices t
  unfold iblk
  rw [View.read_apply]
  show V m c main_v0 _ = V m c main_v0 _
  refine congrArg _ (funext fun a => Fin.ext ?_)
  match a with
  | ⟨0, _⟩ => show win0_0.index t 0 * 512 + 1 * p.val = r.val; rw [e0, hr]; omega
  | ⟨1, _⟩ => show win0_0.index t 1 * 768 + 1 * k.val = k.val; rw [e1]; omega

/-- The factor's one block is the factor. -/
theorem factor_block_apply (c : Dev nD) (t : Fin cfg0.N) (k : Fin 768) :
    (iblk m c 1 t : Vec Ideal S768 .f32) (ix1 k) = (V m c main_v1 : S768.Idx → EReal) (ix1 k) := by
  obtain ⟨-, -, e, -⟩ := block_indices t
  unfold iblk
  rw [View.read_apply]
  show V m c main_v1 _ = V m c main_v1 _
  refine congrArg _ (funext fun a => Fin.ext ?_)
  match a with
  | ⟨0, _⟩ => show win0_1.index t 0 * 768 + 1 * k.val = k.val; rw [e]; omega

/-- The first weight matrix's one block is the matrix. -/
theorem first_weights_block_apply (c : Dev nD) (t : Fin cfg0.N) (k : Fin 768) (f : Fin 3072) :
    (iblk m c 2 t : Vec Ideal S768x3072 .bf16) (ix2 k f) = (V m c main_v3 : S768x3072.Idx → EReal) (ix2 k f) := by
  obtain ⟨-, -, -, e0, e1, -⟩ := block_indices t
  unfold iblk
  rw [View.read_apply]
  show V m c main_v3 _ = V m c main_v3 _
  refine congrArg _ (funext fun a => Fin.ext ?_)
  match a with
  | ⟨0, _⟩ => show win0_2.index t 0 * 768 + 1 * k.val = k.val; rw [e0]; omega
  | ⟨1, _⟩ => show win0_2.index t 1 * 3072 + 1 * f.val = f.val; rw [e1]; omega

/-- The second weight matrix's one block is the matrix. -/
theorem second_weights_block_apply (c : Dev nD) (t : Fin cfg0.N) (f : Fin 3072) (e : Fin 768) :
    (iblk m c 3 t : Vec Ideal S3072x768 .bf16) (ix2 f e) = (V m c main_v5 : S3072x768.Idx → EReal) (ix2 f e) := by
  obtain ⟨-, -, -, -, -, e0, e1, -⟩ := block_indices t
  unfold iblk
  rw [View.read_apply]
  show V m c main_v5 _ = V m c main_v5 _
  refine congrArg _ (funext fun a => Fin.ext ?_)
  match a with
  | ⟨0, _⟩ => show win0_3.index t 0 * 3072 + 1 * f.val = f.val; rw [e0]; omega
  | ⟨1, _⟩ => show win0_3.index t 1 * 768 + 1 * e.val = e.val; rw [e1]; omega

/-- The first bias's one block is the bias. -/
theorem first_bias_block_apply (c : Dev nD) (t : Fin cfg0.N) (f : Fin 3072) :
    (iblk m c 4 t : Vec Ideal S3072 .f32) (ix1 f) = (V m c main_arg3 : S3072.Idx → EReal) (ix1 f) := by
  obtain ⟨-, -, -, -, -, -, -, e, -⟩ := block_indices t
  unfold iblk
  rw [View.read_apply]
  show V m c main_arg3 _ = V m c main_arg3 _
  refine congrArg _ (funext fun a => Fin.ext ?_)
  match a with
  | ⟨0, _⟩ => show win0_4.index t 0 * 3072 + 1 * f.val = f.val; rw [e]; omega

/-- The second bias's one block is the bias. -/
theorem second_bias_block_apply (c : Dev nD) (t : Fin cfg0.N) (e : Fin 768) :
    (iblk m c 5 t : Vec Ideal S768 .f32) (ix1 e) = (V m c main_arg5 : S768.Idx → EReal) (ix1 e) := by
  obtain ⟨-, -, -, -, -, -, -, -, h, -⟩ := block_indices t
  unfold iblk
  rw [View.read_apply]
  show V m c main_arg5 _ = V m c main_arg5 _
  refine congrArg _ (funext fun a => Fin.ext ?_)
  match a with
  | ⟨0, _⟩ => show win0_5.index t 0 * 768 + 1 * e.val = e.val; rw [h]; omega

/-- WHAT POINT `t` WRITES BACK is block `t` of the map over the rows. -/
theorem written_back (c : Dev nD) (t : Fin cfg0.N) :
    (dats m 0 c).flushed 6 t = ((cfg0.win 6).blk t).view.read (Elt Ideal) (rowsOf m c) := by
  show (cfg0.win 6).cut (grid0.coords t) ((dats m 0 c).after 6 t) = _
  rw [after0_6]
  unfold out0_6
  rw [View.canon_unit_zero zero2]
  simp only [View.ld_unit_zero (S := S512x768) zero2, View.ld_unit_zero (S := S768) zero1,
    View.ld_unit_zero (S := S768x3072) zero2, View.ld_unit_zero (S := S3072) zero1, View.ld_unit_zero (S := S3072x768) zero2]
  have hN : grid0.N = 16 := N_0
  have ht : t.val < 16 := by have h : t.val < grid0.N := t.isLt; omega
  obtain ⟨-, -, -, -, -, -, -, -, -, e0, e1⟩ := block_indices t
  funext j
  obtain ⟨p, e, rfl⟩ : ∃ (p : Fin 512) (e : Fin 768), j = ix2 p e := ⟨j 0, j 1, eq_ix2 j⟩
  rw [View.read_apply]
  have hemb : ((cfg0.win 6).blk t).view.emb (ix2 p e) = ix2 (⟨512 * t.val + p.val, by omega⟩ : Fin 8192) e :=
    funext fun a => Fin.ext (by
      match a with
      | ⟨0, _⟩ => show win0_6.index t 0 * 512 + 1 * p.val = 512 * t.val + p.val; rw [e0]; omega
      | ⟨1, _⟩ => show win0_6.index t 1 * 768 + 1 * e.val = e.val; rw [e1]; omega)
  rw [hemb]
  exact stored_eq_rows _ _ _ _ _ _ _ _ _ _ _ _ p e _
    (fun k => row_block_apply m c t p k _ rfl) (fun k => factor_block_apply m c t k)
    (fun k f => first_weights_block_apply m c t k f) (fun f e' => second_weights_block_apply m c t f e')
    (fun f => first_bias_block_apply m c t f) (fun e' => second_bias_block_apply m c t e')

/-- A row index is in point `t`'s block iff each coordinate is in the block's range on its axis. -/
theorem mem_block (t : Fin cfg0.N) (i : S8192x768.Idx) :
    i ∈ ((cfg0.win 6).blk t).view.set ↔ ∀ a : Fin 2, win0_6.index t a * S512x768.size a ≤ (i a).val ∧ (i a).val < win0_6.index t a * S512x768.size a + S512x768.size a := by
  show i ∈ ((View.whole main_v6).slice (win0_6.rect t)).set ↔ _
  rw [View.set_slice_whole, Rect.mem_set_unit]
  exact Iff.rfl

/-- Row `r` is in the block of point `r / 512`: the 16 blocks cover the result array. -/
theorem covered (i : S8192x768.Idx) :
    ∃ t : Fin cfg0.N, (cfg0.win 6).flush t = true ∧ i ∈ ((cfg0.win 6).blk t).view.set := by
  have hi0 : (i 0).val < 8192 := (i 0).isLt
  have hi1 : (i 1).val < 768 := (i 1).isLt
  have hN : grid0.N = 16 := N_0
  have hlt : (i 0).val / 512 < cfg0.N := by show (i 0).val / 512 < grid0.N; rw [hN]; omega
  obtain ⟨-, -, -, -, -, -, -, -, -, e0, e1⟩ := block_indices ⟨(i 0).val / 512, hlt⟩
  have e0' : win0_6.index ⟨(i 0).val / 512, hlt⟩ (0 : Fin 2) = (i 0).val / 512 := e0
  refine ⟨⟨(i 0).val / 512, hlt⟩, flush0_6 _, ?_⟩
  rw [mem_block]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    rw [e0']; omega
  | ⟨1, _⟩ =>
    show win0_6.index ⟨(i 0).val / 512, hlt⟩ (1 : Fin 2) * 768 ≤ (i 1).val ∧ (i 1).val < win0_6.index ⟨(i 0).val / 512, hlt⟩ (1 : Fin 2) * 768 + 768
    rw [e1]; omega

/-- THE RESULT ARRAY after the run holds the map over the rows. -/
theorem result_rows (c : Dev nD) : (dats m 0 c).arrAt 6 cfg0.N = rowsOf m c :=
  (dats m 0 c).arrAt_eq_of_cover 6 (rowsOf m c) (fun t _ => written_back m c t) covered

/-- THE PROGRAM'S RESULT: the host splits the rows back into tokens, and the arrays the region found were the launched
    tokens flattened, the cosine of the launched `p`, the launched weight matrices transposed and the launched biases. -/
theorem result_tokens (c : Dev nD) :
    Pipeline.afterTail₀ cfgs (dats m) 0 (V0 m) [hostOps1] c main_v7
      = Cert.FeedForward.tokens (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6) = rowsOf m c :=
    (Pipeline.withArrays_arr spec0 launch0.win.arr_inj c _ _ 6).trans (result_rows m c)
  show shapeCast S4x2048x768 (Pipeline.withArrays (cfgs 0).spec c (V0 m c) (fun w => (dats m 0 c).arrAt w (cfgs 0).N) (Proc.devRef .tc main_v6)) shapeCasts_S8192x768_S4x2048x768 = _
  rw [hw]
  funext i
  obtain ⟨b, s, e, rfl⟩ : ∃ (b : Fin 4) (s : Fin 2048) (e : Fin 768), i = ix3 b s e := ⟨i 0, i 1, i 2, eq_ix3 i⟩
  have hb : b.val < 4 := b.isLt
  have hs : s.val < 2048 := s.isLt
  rw [Cert.FeedForward.tokens_ix3, Arrays.split_apply _ _ b s e (⟨2048 * b.val + s.val, by omega⟩ : Fin 8192) rfl]
  unfold rowsOf
  rw [Cert.FeedForward.rows_ix2, V_main_arg3 m c, V_main_arg5 m c]
  exact (Cert.FeedForward.tokensAt_eq_rowsAt _ _ _ _ _ _ _ _ _ _ b s e _
    (fun k => Arrays.rows_entry_apply m c b s k _ rfl) (fun k => Arrays.factor_entry_apply m c k)
    (fun k f => Arrays.first_weights_entry_apply m c k f) (fun f e' => Arrays.second_weights_entry_apply m c f e')).symm

/-- THE RUN, READ: every weakly fair execution of the kernel's program terminates with the result array holding the
    feed-forward map over the tokens of the launched arguments, and the arguments as launched (an argument the region
    does not stage is untouched by every host line; a staged one is an input window, whose array the region leaves as
    it found it). -/
theorem run : θ_run defs (onTc (τ := τ) (main (F := Ideal))) ⟨m, fun _ => 0, ρ⟩ fun r => ∀ c : Dev nD,
      r.2.mem ((c.tc : Thread nD τ).loc main_v7)
        = Cert.FeedForward.tokens (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (result_tokens m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Result

end
-- ==== Proof.lean ====
/-
  The certificate of a two-layer feed-forward map on cosine features, against its plain reference.

  Both programs compute, for each of 4 × 2048 tokens `x` (768 numbers each) and each output coordinate `e`,

      out_e = ( ∑_f max ( (∑_k cos x_k · cos p_k · W1_{f k}) + b1_f ) 0 · W2_{e f} ) + b2_e

  (`Cert.FeedForward.tokens`). The reference states it in that form. The kernel's program first flattens the tokens
  into 8192 rows, takes `cos p` and transposes the two weight matrices, then computes the rows in 16 blocks of 512,
  each block by two matrix products into zero accumulators with the bias added after each and the maximum with zero
  between them, and finally splits the rows back into tokens. On the extended reals the changes of number format
  around the products are the identity and a product is the plain sum over its contracted coordinate, so the two
  results are the same sums of the same terms: no term is re-associated across an operation that could meet an
  infinity, and the argument never uses that the inputs are finite.

  `preserves`: the idealized kernel is the kernel's own text read on the extended reals (nothing was rewritten), so
  there is nothing to state. The three frames: the two kernel programs' are the generated frame certificates, the
  reference's is its generated run with the result dropped.
-/
import proofs.«164454_j65481071409452_2_alg».proof.Defs
import proofs.«164454_j65481071409452_2_alg».proof.Proof.Gen.Kernel
import proofs.«164454_j65481071409452_2_alg».proof.Proof.Gen.Kernel.Skeleton
import proofs.«164454_j65481071409452_2_alg».proof.Proof.Gen.Kernel.Launch
import proofs.«164454_j65481071409452_2_alg».proof.Proof.Gen.Kernel.Points
import proofs.«164454_j65481071409452_2_alg».proof.Proof.Gen.Kernel.Frame
import proofs.«164454_j65481071409452_2_alg».proof.Proof.Gen.KernelIdeal
import proofs.«164454_j65481071409452_2_alg».proof.Proof.Gen.KernelIdeal.Skeleton
import proofs.«164454_j65481071409452_2_alg».proof.Proof.Gen.KernelIdeal.Launch
import proofs.«164454_j65481071409452_2_alg».proof.Proof.Gen.KernelIdeal.Points
import proofs.«164454_j65481071409452_2_alg».proof.Proof.Gen.KernelIdeal.Frame
import proofs.«164454_j65481071409452_2_alg».proof.Proof.Gen.ReferenceIdeal
import proofs.«164454_j65481071409452_2_alg».proof.Proof.Gen.Pre_finite_inputs
import proofs.«164454_j65481071409452_2_alg».proof.Proof.Gen.ReferenceIdeal.Run
import proofs.«164454_j65481071409452_2_alg».proof.Proof.Gen.ReferenceIdeal.Read
import proofs.«164454_j65481071409452_2_alg».proof.Proof.FeedForward
import proofs.«164454_j65481071409452_2_alg».proof.Proof.ReferenceValue
import proofs.«164454_j65481071409452_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories agreeing on the six arguments, the kernel's program and the reference both end
    with the feed-forward map over the tokens of those arguments in their result arrays. -/
theorem algebraic : Cert.algebraic_KernelIdeal_ReferenceIdeal := by
  intro m ρ m' ρ' _ hagree
  refine ⟨fun c => Cert.FeedForward.tokens
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v13_eq, Cert.ReferenceIdeal.Tokens.reference_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
